-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x2 : Shape := ⟨2, ![4194304, 2]⟩
abbrev S4194304x1 : Shape := ⟨2, ![4194304, 1]⟩
abbrev S4194304 : Shape := ⟨1, ![4194304]⟩
abbrev S_ : Shape := ⟨0, ![]⟩

class Facts : Prop where
  bcast_S_S4194304x2 : S_.BroadcastsInDim S4194304x2 (![] : Fin 0 → Fin S4194304x2.rank)
  reducesTo_S4194304x2_S_d0_1 : S4194304x2.ReducesTo [0, 1] S_
  h_S_ : 0 < S_.numel
  bcast_S_S4194304x1 : S_.BroadcastsInDim S4194304x1 (![] : Fin 0 → Fin S4194304x1.rank)
  reducesTo_S4194304x1_S_d0_1 : S4194304x1.ReducesTo [0, 1] S_

variable [Facts]

def fn {F : FTy → Type} [FloatOps F] (main_arg0 : FVec F S4194304x2 .f32) (main_arg1 : FVec F S4194304x1 .f32) (main_arg2 : FVec F S4194304x1 .f32) (main_arg3 : IVec S4194304 32) (main_arg4 : IVec S4194304 32) : IVec S_ 1 :=
  let main_v0 : FVec F S4194304x2 .f32 := Host.absf main_arg0
  let main_cst : FVec F S_ .f32 := constant S_ .f32 0x7F800000#32
  let main_v1 : FVec F S4194304x2 .f32 := broadcastInDim S4194304x2 ![] bcast_S_S4194304x2 main_cst
  let main_v2 : IVec S4194304x2 1 := cmpf .olt main_v0 main_v1
  let main_c : IVec S_ 1 := constantI S_ 1 1#1
  let main_v3 : IVec S_ 1 := (fun x v => Host.reduce IntOp.andi x v reducesTo_S4194304x2_S_d0_1 h_S_) main_v2 main_c
  let main_v4 : FVec F S4194304x1 .f32 := Host.absf main_arg1
  let main_cst_0 : FVec F S_ .f32 := constant S_ .f32 0x7F800000#32
  let main_v5 : FVec F S4194304x1 .f32 := broadcastInDim S4194304x1 ![] bcast_S_S4194304x1 main_cst_0
  let main_v6 : IVec S4194304x1 1 := cmpf .olt main_v4 main_v5
  let main_c_1 : IVec S_ 1 := constantI S_ 1 1#1
  let main_v7 : IVec S_ 1 := (fun x v => Host.reduce IntOp.andi x v reducesTo_S4194304x1_S_d0_1 h_S_) main_v6 main_c_1
  let main_v8 : IVec S_ 1 := andi main_v3 main_v7
  let main_v9 : FVec F S4194304x1 .f32 := Host.absf main_arg2
  let main_cst_2 : FVec F S_ .f32 := constant S_ .f32 0x7F800000#32
  let main_v10 : FVec F S4194304x1 .f32 := broadcastInDim S4194304x1 ![] bcast_S_S4194304x1 main_cst_2
  let main_v11 : IVec S4194304x1 1 := cmpf .olt main_v9 main_v10
  let main_c_3 : IVec S_ 1 := constantI S_ 1 1#1
  let main_v12 : IVec S_ 1 := (fun x v => Host.reduce IntOp.andi x v reducesTo_S4194304x1_S_d0_1 h_S_) main_v11 main_c_3
  let main_v13 : IVec S_ 1 := andi main_v8 main_v12
  main_v13
-- ==== Kernel.lean ====
abbrev S4194304x2 : Shape := ⟨2, ![4194304, 2]⟩
abbrev S4194304x1 : Shape := ⟨2, ![4194304, 1]⟩
abbrev S4194304 : Shape := ⟨1, ![4194304]⟩
abbrev S32768x128 : Shape := ⟨2, ![32768, 128]⟩
abbrev S8x128 : Shape := ⟨2, ![8, 128]⟩
abbrev S2048x128 : Shape := ⟨2, ![2048, 128]⟩
abbrev S128 : Shape := ⟨1, ![128]⟩
abbrev S1x128 : Shape := ⟨2, ![1, 128]⟩
abbrev S4x128 : Shape := ⟨2, ![4, 128]⟩
abbrev S_ : Shape := ⟨0, ![]⟩

abbrev nBuf : Space → Nat
  | .hbm => 53
  | .vmem => 14
  | .smem => 0
  | _ => 0

abbrev bufTy : (tb : Table) → Fin (tcTables nBuf tb) → BufTy
  | .hbm, ⟨0, _⟩ => ⟨S4194304x2, .f32⟩
  | .hbm, ⟨1, _⟩ => ⟨S4194304x1, .f32⟩
  | .hbm, ⟨2, _⟩ => ⟨S4194304x1, .f32⟩
  | .hbm, ⟨3, _⟩ => ⟨S4194304, .i32⟩
  | .hbm, ⟨4, _⟩ => ⟨S4194304, .i32⟩
  | .hbm, ⟨5, _⟩ => ⟨S4194304x1, .f32⟩
  | .hbm, ⟨6, _⟩ => ⟨S4194304, .f32⟩
  | .hbm, ⟨7, _⟩ => ⟨S32768x128, .f32⟩
  | .hbm, ⟨8, _⟩ => ⟨S4194304x1, .f32⟩
  | .hbm, ⟨9, _⟩ => ⟨S4194304, .f32⟩
  | .hbm, ⟨10, _⟩ => ⟨S32768x128, .f32⟩
  | .hbm, ⟨11, _⟩ => ⟨S4194304, .f32⟩
  | .hbm, ⟨12, _⟩ => ⟨S32768x128, .f32⟩
  | .hbm, ⟨13, _⟩ => ⟨S4194304, .f32⟩
  | .hbm, ⟨14, _⟩ => ⟨S32768x128, .f32⟩
  | .hbm, ⟨15, _⟩ => ⟨S32768x128, .i32⟩
  | .hbm, ⟨16, _⟩ => ⟨S32768x128, .i32⟩
  | .hbm, ⟨17, _⟩ => ⟨S8x128, .f32⟩
  | .hbm, ⟨18, _⟩ => ⟨S1x128, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S1x128, .f32⟩
  | .hbm, ⟨23, _⟩ => ⟨S128, .f32⟩
  | .hbm, ⟨24, _⟩ => ⟨S_, .f32⟩
  | .hbm, ⟨25, _⟩ => ⟨S_, .f32⟩
  | .hbm, ⟨26, _⟩ => ⟨S1x128, .f32⟩
  | .hbm, ⟨27, _⟩ => ⟨S128, .f32⟩
  | .hbm, ⟨28, _⟩ => ⟨S_, .f32⟩
  | .hbm, ⟨29, _⟩ => ⟨S_, .f32⟩
  | .hbm, ⟨30, _⟩ => ⟨S1x128, .f32⟩
  | .hbm, ⟨31, _⟩ => ⟨S128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .i32⟩
  | .local _ .vmem, ⟨9, _⟩ => ⟨S2048x128, .i32⟩
  | .local _ .vmem, ⟨10, _⟩ => ⟨S2048x128, .i32⟩
  | .local _ .vmem, ⟨11, _⟩ => ⟨S2048x128, .i32⟩
  | .local _ .vmem, ⟨12, _⟩ => ⟨S8x128, .f32⟩
  | .local _ .vmem, ⟨13, _⟩ => ⟨S8x128, .f32⟩
  | _, _ => ⟨S4194304x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v54 : BitVec 1 := Scalar.cmpi .eq arg0 c15_i32
  let v55 : BitVec 32 := Scalar.extui v54
  let c0_i32_27 : BitVec 32 := 0#32
  let v56 : BitVec 1 := Scalar.cmpi .ne v55 c0_i32_27
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  slices_S4194304x2_S4194304x1_0_0 : S4194304x2.Slices ![0, 0] S4194304x1
  shapeCasts_S4194304x1_S4194304 : S4194304x1.ShapeCasts S4194304
  shapeCasts_S4194304_S32768x128 : S4194304.ShapeCasts S32768x128
  slices_S4194304x2_S4194304x1_0_1 : S4194304x2.Slices ![0, 1] S4194304x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S128 : S2048x128.Reduces [0] S128
  shapeCasts_S128_S1x128 : S128.ShapeCasts S1x128
  concatenates_S1x128_S1x128_S1x128_S1x128_S4x128_d0 : Shape.Concatenates [S1x128, S1x128, S1x128, S1x128] S4x128 0
  inb_S8x128_S4x128_0_0 : ∀ a, (![0, 0] : Fin 2 → Nat) a + S4x128.size a ≤ S8x128.size a
  h_S4x128 : 0 < S4x128.numel
  shapeCasts_S4x128_S4x128 : S4x128.ShapeCasts S4x128
  slices_S8x128_S1x128_0_0 : S8x128.Slices ![0, 0] S1x128
  shapeCasts_S1x128_S128 : S1x128.ShapeCasts S128
  reducesTo_S128_S_d0 : S128.ReducesTo [0] S_
  h_S_ : 0 < S_.numel
  slices_S8x128_S1x128_1_0 : S8x128.Slices ![1, 0] S1x128
  slices_S8x128_S1x128_2_0 : S8x128.Slices ![2, 0] S1x128
  slices_S8x128_S1x128_3_0 : S8x128.Slices ![3, 0] S1x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S32768x128.size a
  hwx0_0 : ∀ i : grid0.Coords, EltTy.bits .f32 = 32 ∨ (Rect.block (s := S32768x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S32768x128.size a
  hwx0_1 : ∀ i : grid0.Coords, EltTy.bits .f32 = 32 ∨ (Rect.block (s := S32768x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S32768x128.size a
  hwx0_2 : ∀ i : grid0.Coords, EltTy.bits .f32 = 32 ∨ (Rect.block (s := S32768x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S32768x128.size a
  hwx0_3 : ∀ i : grid0.Coords, EltTy.bits .f32 = 32 ∨ (Rect.block (s := S32768x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S32768x128.size a
  hwx0_4 : ∀ i : grid0.Coords, EltTy.bits .i32 = 32 ∨ (Rect.block (s := S32768x128) S2048x128.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S32768x128.size a
  hwx0_5 : ∀ i : grid0.Coords, EltTy.bits .i32 = 32 ∨ (Rect.block (s := S32768x128) S2048x128.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S8x128.size a
  hwx0_6 : ∀ i : grid0.Coords, EltTy.bits .f32 = 32 ∨ (Rect.block (s := S8x128) S8x128.size (cc0_transform_6 i) (hinb0_6 i)).WholeWords (EltTy.packing .f32)

variable [Facts₀]

abbrev win0_0 : Pipeline.Window sig grid0 :=
  Pipeline.Window.ofSpec (Memref.whole main_v2) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2048x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S8x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4194304x2 : Shape := ⟨2, ![4194304, 2]⟩
abbrev S4194304x1 : Shape := ⟨2, ![4194304, 1]⟩
abbrev S4194304 : Shape := ⟨1, ![4194304]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S4194304x2, .f32⟩
  | .hbm, ⟨1, _⟩ => ⟨S4194304x1, .f32⟩
  | .hbm, ⟨2, _⟩ => ⟨S4194304x1, .f32⟩
  | .hbm, ⟨3, _⟩ => ⟨S4194304, .i32⟩
  | .hbm, ⟨4, _⟩ => ⟨S4194304, .i32⟩
  | .hbm, ⟨5, _⟩ => ⟨S4194304x1, .f32⟩
  | .hbm, ⟨6, _⟩ => ⟨S4194304x1, .f32⟩
  | .hbm, ⟨7, _⟩ => ⟨S4194304x1, .f32⟩
  | .hbm, ⟨8, _⟩ => ⟨S_, .f32⟩
  | .hbm, ⟨9, _⟩ => ⟨S4194304x1, .f32⟩
  | .hbm, ⟨10, _⟩ => ⟨S4194304x1, .f32⟩
  | .hbm, ⟨11, _⟩ => ⟨S4194304x1, .f32⟩
  | .hbm, ⟨12, _⟩ => ⟨S4194304x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4194304x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4194304x1, .f32⟩
  | .hbm, ⟨23, _⟩ => ⟨S_, .f32⟩
  | .hbm, ⟨24, _⟩ => ⟨S4194304x1, .f32⟩
  | .hbm, ⟨25, _⟩ => ⟨S4194304x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .i32⟩
  | .hbm, ⟨31, _⟩ => ⟨S4194304, .i32⟩
  | .hbm, ⟨32, _⟩ => ⟨S4194304, .i1⟩
  | .hbm, ⟨33, _⟩ => ⟨S4194304x1, .i1⟩
  | .hbm, ⟨34, _⟩ => ⟨S_, .i32⟩
  | .hbm, ⟨35, _⟩ => ⟨S4194304, .i32⟩
  | .hbm, ⟨36, _⟩ => ⟨S4194304, .i1⟩
  | .hbm, ⟨37, _⟩ => ⟨S4194304x1, .i1⟩
  | .hbm, ⟨38, _⟩ => ⟨S4194304x1, .f32⟩
  | .hbm, ⟨39, _⟩ => ⟨S_, .f32⟩
  | .hbm, ⟨40, _⟩ => ⟨S4194304x1, .f32⟩
  | .hbm, ⟨41, _⟩ => ⟨S4194304x1, .f32⟩
  | .hbm, ⟨42, _⟩ => ⟨S4194304x1, .f32⟩
  | .hbm, ⟨43, _⟩ => ⟨S_, .f32⟩
  | .hbm, ⟨44, _⟩ => ⟨S4194304x1, .f32⟩
  | .hbm, ⟨45, _⟩ => ⟨S4194304x1, .f32⟩
  | .hbm, ⟨46, _⟩ => ⟨S4194304x1, .i1⟩
  | .hbm, ⟨47, _⟩ => ⟨S4194304x1, .i1⟩
  | .hbm, ⟨48, _⟩ => ⟨S4194304x1, .i1⟩
  | .hbm, ⟨49, _⟩ => ⟨S_, .f32⟩
  | .hbm, ⟨50, _⟩ => ⟨S_, .f32⟩
  | .hbm, ⟨51, _⟩ => ⟨S4194304x1, .f32⟩
  | .hbm, ⟨52, _⟩ => ⟨S4194304x1, .f32⟩
  | .hbm, ⟨53, _⟩ => ⟨S4194304x1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S4194304x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_call1_cst : Ref sig .tc := ⟨.hbm, 43, rfl⟩
abbrev main_call1_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_call2_v0 : Ref sig .tc := ⟨.hbm, 50, rfl⟩
abbrev main_call2_v1 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_cst_10 : Ref sig .tc := ⟨.hbm, 56, rfl⟩
abbrev main_v33 : Ref sig .tc := ⟨.hbm, 57, rfl⟩
abbrev main_cst_11 : Ref sig .tc := ⟨.hbm, 58, rfl⟩
abbrev main_v34 : Ref sig .tc := ⟨.hbm, 59, rfl⟩
abbrev main_v35 : Ref sig .tc := ⟨.hbm, 60, rfl⟩
abbrev main_cst_12 : Ref sig .tc := ⟨.hbm, 61, rfl⟩
abbrev main_v36 : Ref sig .tc := ⟨.hbm, 62, rfl⟩
abbrev main_v37 : Ref sig .tc := ⟨.hbm, 63, rfl⟩
abbrev main_cst_13 : Ref sig .tc := ⟨.hbm, 64, rfl⟩
abbrev main_v38 : Ref sig .tc := ⟨.hbm, 65, rfl⟩
abbrev main_cst_14 : Ref sig .tc := ⟨.hbm, 66, rfl⟩
abbrev main_v39 : Ref sig .tc := ⟨.hbm, 67, rfl⟩
abbrev main_v40 : Ref sig .tc := ⟨.hbm, 68, rfl⟩

abbrev nD : Nat := 1
abbrev τ : Topo := Topo.v7x

variable {F : FTy → Type} [FloatOps F]

class Facts₀ : Prop where
  slices_S4194304x2_S4194304x1_0_0 : S4194304x2.Slices ![0, 0] S4194304x1
  slices_S4194304x2_S4194304x1_0_1 : S4194304x2.Slices ![0, 1] S4194304x1
  bcast_S_S4194304x1 : S_.BroadcastsInDim S4194304x1 (![] : Fin 0 → Fin S4194304x1.rank)
  reducesTo_S4194304x1_S_d0_1 : S4194304x1.ReducesTo [0, 1] S_
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)

variable [Facts₀]

class Facts : Prop extends Facts₀ where

variable [Facts]
-- ==== Proof.LibWritesOverlay.lean ====
/-
  Two readings of a buffer after stores through rectangles of one view, for any view and any prior contents.
  `read_writes_cons_overlay`: one more store through a rectangle `r` reads as the payload on `r` and as the earlier
  contents off it — `Rect.overlay` of what the earlier stores left —, so a run of stores whose rectangles are disjoint
  (a loop writing one slab per trip) is an iterated overlay that can be read one index at a time.
  `read_fill`: one store through the whole-shape rectangle at the origin (a zero fill) reads as its payload.
-/
import Idealize.ShloMosaic.Lib.WritesUnit
import Idealize.ShloMosaic.Lib.Memref
import Idealize.ShloMosaic.Lib.Exec.Geometry

namespace Cert.WritesOverlay

open Idealize.ShloMosaic

/-- Reading a buffer after one more store through a rectangle: the payload on the rectangle, the earlier contents off it. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons]
    exact View.read_slice_write_of_not_mem r _ _ _ (by rw [Rect.map_emb_univ]; exact hy)

/-- One store through the whole-shape rectangle at the origin leaves its payload. -/
theorem read_fill {sig' : RefSig} {κ : Kind} {sp : Space} {S : Shape} {e : EltTy} {Val : EltTy → Type} (v : View sig' κ sp S e)
    (f : v.ty.Contents Val) {off : Fin S.rank → ℕ} (h : off = fun _ => 0) (inb : ∀ a, off a + S.size a ≤ S.size a) (w : S.Idx → Val e) :
    v.read Val (v.writes Val f [(⟨Rect.unit off S.size inb, w⟩ : View.Piece Val S e)]) = w := by
  subst h; exact View.read_writes_whole v f w

end Cert.WritesOverlay
-- ==== Proof.Pieces.lean ====
/-
  What one grid point leaves in the accumulator.

  The kernel keeps an [8, 128] accumulator. At every grid point it reads the accumulator's first four rows, adds to
  them the four lane-wise partial sums of the point's slab (one row per loss term), and stores the four rows back;
  at the first point the whole accumulator is filled with zeros first, and at the last point the whole accumulator is
  copied to the output block. Here each of those is read back as a value, for any float instance: an entry of the
  first four rows after a point is the update `slabUpdate` of the slab's six blocks and of the four rows as they
  were (all zeros at the first point), and the output block at the last point is the accumulator itself.
-/
import proofs.«149313_j43645457662200_2_alg».proof.Proof.Gen.KernelIdeal.Frame
import proofs.«149313_j43645457662200_2_alg».proof.Proof.LibWritesOverlay
import Idealize.ShloMosaic.Lib.Pipeline.Value
import Idealize.ShloMosaic.Lib.WritesUnit
import Idealize.ShloMosaic.Lib.ValueIdx
import Idealize.ShloMosaic.Lib.Tactic

noncomputable section

open Idealize.ShloMosaic Idealize.ShloMosaic.TcCoe Idealize.SL.Sem
open Idealize.ShloMosaic.ValueIdx

namespace Cert.KernelIdeal.Accum

open Cert.KernelIdeal Cert.KernelIdeal.Gen

variable {F : FTy → Type} [FloatOps F]

theorem hz : (![0, 0] : Fin 2 → Nat) = fun _ => 0 := funext fun a => by fin_cases a <;> rfl

/-- The first four rows of an [8, 128] array, as a [4, 128] block. -/
def top (X : Vec F S8x128 .f32) : Vec F S4x128 .f32 :=
  View.ld X (Rect.unit (s := S8x128) ![0, 0] S4x128.size inb_S8x128_S4x128_0_0)

/-- Row `k`, lane `l` of the first four rows is row `k`, lane `l` of the array. -/
theorem top_apply (X : Vec F S8x128 .f32) (k : Fin 4) (l : Fin 128) :
    top X (ix2 k l) = X (ix2 (⟨k.val, by omega⟩ : Fin 8) l) := by
  unfold top
  show X _ = X _
  congr 1
  funext a
  match a with
  | ⟨0, _⟩ => exact Fin.ext (by show 0 + 1 * k.val = k.val; omega)
  | ⟨1, _⟩ => exact Fin.ext (by show 0 + 1 * l.val = l.val; omega)

/-- The four rows after one more slab: the rows as they were plus the slab's four lane-wise partial sums. -/
def slabUpdate (x0 x1 x2 x3 : Vec F S2048x128 .f32) (x4 x5 : Vec F S2048x128 .i32) (a : Vec F S4x128 .f32) : Vec F S4x128 .f32 :=
  k0_pay1 (k0_pay5 x3) (k0_pay6 x0 x1) (k0_pay7 x0 x1 x2) (k0_pay8 x0 x1) (k0_pay9 x0 x1) (k0_pay10 x4) (k0_pay11 x5)
    (k0_pay12 x0 x1 x3) k0_pay13 a

/-- The zero fill of the first point. -/
abbrev zeros : Vec F S8x128 .f32 := k0_pay2

/-- A point that is neither first nor last: an entry of the first four rows is the update of the rows the point
    before left. -/
theorem mid_apply (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S2048x128 .i32) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : ¬cond0_1 i) (x0 x1 x2 x3 : Vec F S2048x128 .f32) (x4 x5 : Vec F S2048x128 .i32) (xs0 : Vec F S8x128 .f32) (k : Fin 4) (l : Fin 128) :
    sout0_B_0 c i arg1 harg1 arg2 harg2 arg3 harg3 arg4 harg4 arg5 harg5 arg6 harg6 arg7 harg7 arg8 harg8 hc0 hc1 x0 x1 x2 x3 x4 x5 xs0 (ix2 (⟨k.val, by omega⟩ : Fin 8) l) = slabUpdate x0 x1 x2 x3 x4 x5 (top xs0) (ix2 k l) := by
  unfold sout0_B_0
  unfold kernelRun0_B
  dsimp only
  sl_unfold_words
  simp only [View.readAt_eq_ld, harg1.read_unread, harg2.read_unread, harg3.read_unread, harg4.read_unread,
    harg5.read_unread, harg6.read_unread, harg8.read_unread, View.ld_unit_zero (S := S2048x128) hz]
  exact View.read_writes_cons_rows_of_mem (o := 0) _ _ _ _ [] _ (ix2 k l) rfl (Nat.zero_add _).symm rfl

/-- The last point: the same for the accumulator, -/
theorem last_apply (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S2048x128 .i32) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i) (x0 x1 x2 x3 : Vec F S2048x128 .f32) (x4 x5 : Vec F S2048x128 .i32) (xs0 : Vec F S8x128 .f32) (k : Fin 4) (l : Fin 128) :
    sout0_C_0 c i arg1 harg1 arg2 harg2 arg3 harg3 arg4 harg4 arg5 harg5 arg6 harg6 arg7 harg7 arg8 harg8 hc0 hc1 x0 x1 x2 x3 x4 x5 xs0 (ix2 (⟨k.val, by omega⟩ : Fin 8) l) = slabUpdate x0 x1 x2 x3 x4 x5 (top xs0) (ix2 k l) := by
  unfold sout0_C_0
  unfold kernelRun0_C
  dsimp only
  sl_unfold_words
  simp only [View.readAt_eq_ld, harg1.read_unread, harg2.read_unread, harg3.read_unread, harg4.read_unread,
    harg5.read_unread, harg6.read_unread, harg8.read_unread, View.ld_unit_zero (S := S2048x128) hz]
  exact View.read_writes_cons_rows_of_mem (o := 0) _ _ _ _ [] _ (ix2 k l) rfl (Nat.zero_add _).symm rfl

/-- and the output block is the accumulator, copied whole. -/
theorem last_out (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S2048x128 .i32) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i) (x0 x1 x2 x3 : Vec F S2048x128 .f32) (x4 x5 : Vec F S2048x128 .i32) (xs0 : Vec F S8x128 .f32) :
    out0_C_6 c i arg1 harg1 arg2 harg2 arg3 harg3 arg4 harg4 arg5 harg5 arg6 harg6 arg7 harg7 arg8 harg8 hc0 hc1 x0 x1 x2 x3 x4 x5 xs0 = sout0_C_0 c i arg1 harg1 arg2 harg2 arg3 harg3 arg4 harg4 arg5 harg5 arg6 harg6 arg7 harg7 arg8 harg8 hc0 hc1 x0 x1 x2 x3 x4 x5 xs0 := by
  unfold out0_C_6 sout0_C_0
  unfold kernelRun0_C
  dsimp only
  sl_unfold_words
  rw [Cert.WritesOverlay.read_fill _ _ hz]
  rw [View.readAt_eq_ld, View.ld_unit_zero (S := S8x128) hz]

/-- The first point: the accumulator is zeroed, then updated. -/
theorem first_apply (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .i32) (harg5 : arg5.IsWhole) (arg6 : Memref sig .tc .vmem S2048x128 .i32) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i) (x0 x1 x2 x3 : Vec F S2048x128 .f32) (x4 x5 : Vec F S2048x128 .i32) (k : Fin 4) (l : Fin 128) :
    sout0_A_0 c i arg1 harg1 arg2 harg2 arg3 harg3 arg4 harg4 arg5 harg5 arg6 harg6 arg7 harg7 arg8 harg8 hc0 hc1 x0 x1 x2 x3 x4 x5 (ix2 (⟨k.val, by omega⟩ : Fin 8) l) = slabUpdate x0 x1 x2 x3 x4 x5 (top zeros) (ix2 k l) := by
  unfold sout0_A_0
  unfold kernelRun0_A
  dsimp only
  sl_unfold_words
  rw [View.readCov_eq_canon_ld _ _ _ (fun y => ⟨_, List.mem_singleton_self _, View.mem_set_unit_zero hz inb_S8x128_S8x128_0_0 y⟩),
    View.canon_unit_zero hz]
  simp only [View.readAt_eq_ld, harg1.read_unread, harg2.read_unread, harg3.read_unread, harg4.read_unread,
    harg5.read_unread, harg6.read_unread, View.ld_unit_zero (S := S2048x128) hz]
  exact View.read_writes_cons_rows_of_mem (o := 0) _ _ _ _ _ _ (ix2 k l) rfl (Nat.zero_add _).symm rfl

end Cert.KernelIdeal.Accum

end
-- ==== Proof.Spec.lean ====
/-
  The loss, as mathematics over the extended reals.

  A sample has a predicted interval `[l, u]`, a target `t`, a previous value `p` and two integer flags `dt`, `pv`.
  Its centre is `(l + u) / 2`. The loss is a weighted combination of four sums over all the samples, each divided
  by the number of samples: the squared distance of the target from the centre (weight 3/2), the width `u - l`
  (weight 1/10), the amount `max (l - u) 0` by which the interval is inverted (weight 10), and a directional
  penalty (weight 1/2): when `dt ≠ 0`, the centre may not exceed `p` if `pv = 0` and may not fall below it otherwise.

  The four per-sample terms and the final combination are written once here, with the float literals kept as the
  words the programs print; both programs are shown to compute `combine` of the four sums of these terms.
-/
import Idealize.ShloMosaic.PureOps.Ideal
import Idealize.ShloMosaic.Lib.ValueIdx

noncomputable section

namespace Cert.Spec

open Idealize.ShloMosaic Idealize.ShloMosaic.ValueIdx
open scoped BigOperators

/-- The literal `0.0`. -/
abbrev zero : Ideal .f32 := FloatOps.ofBits .f32 0x00000000#32

/-- The centre of the interval: `(l + u) · 0.5`. -/
def centre (l u : Ideal .f32) : Ideal .f32 :=
  FloatOps.mulf (FloatOps.addf l u) (FloatOps.ofBits .f32 0x3F000000#32)

/-- The squared distance of the target from the centre. -/
def sqTerm (l u t : Ideal .f32) : Ideal .f32 :=
  FloatOps.mulf (FloatOps.subf t (centre l u)) (FloatOps.subf t (centre l u))

/-- The interval's width. -/
def widthTerm (l u : Ideal .f32) : Ideal .f32 := FloatOps.subf u l

/-- How far the interval is inverted: `max (l - u) 0`. -/
def crossTerm (l u : Ideal .f32) : Ideal .f32 := FloatOps.maximumf (FloatOps.subf l u) zero

/-- The directional penalty: with `dt ≠ 0`, `max (centre - p) 0` when `pv = 0` and `max (p - centre) 0` when
    `pv ≠ 0`; nothing when `dt = 0`. -/
def dirTerm (l u p : Ideal .f32) (dt pv : BitVec 32) : Ideal .f32 :=
  Scalar.select (IntOp.andi (IntOp.cmpi .ne dt 0#32) (IntOp.cmpi .eq pv 0#32))
    (FloatOps.maximumf (FloatOps.subf (centre l u) p) zero)
    (Scalar.select (IntOp.andi (IntOp.cmpi .ne dt 0#32) (IntOp.xori (IntOp.cmpi .eq pv 0#32) 1#1))
      (FloatOps.maximumf (FloatOps.subf p (centre l u)) zero) zero)

/-- The final combination of the four sums `a`, `b`, `c`, `d`, with `n = 4194304` samples:
    `((a / n) · 1.5 + 0.1 · (b / n) + 10 · (c / n)) + (0.5 · d) / n`. -/
def combine (a b c d : Ideal .f32) : Ideal .f32 :=
  FloatOps.addf
    (FloatOps.addf
      (FloatOps.addf
        (FloatOps.mulf (FloatOps.hostDivf a (FloatOps.ofBits .f32 0x4A800000#32)) (FloatOps.ofBits .f32 0x3FC00000#32))
        (FloatOps.mulf (FloatOps.ofBits .f32 0x3DCCCCCD#32) (FloatOps.hostDivf b (FloatOps.ofBits .f32 0x4A800000#32))))
      (FloatOps.mulf (FloatOps.ofBits .f32 0x41200000#32) (FloatOps.hostDivf c (FloatOps.ofBits .f32 0x4A800000#32))))
    (FloatOps.hostDivf (FloatOps.mulf (FloatOps.ofBits .f32 0x3F000000#32) d) (FloatOps.ofBits .f32 0x4A800000#32))

/-- The `k`-th loss term of sample `n`, from the five argument arrays: the interval bounds are the two columns of
    `P`, the target and the previous value the columns `T` and `Q`, the flags the vectors `D` and `V`. -/
def term (P : (⟨2, ![4194304, 2]⟩ : Shape).Idx → Ideal .f32) (T Q : (⟨2, ![4194304, 1]⟩ : Shape).Idx → Ideal .f32)
    (D V : (⟨1, ![4194304]⟩ : Shape).Idx → BitVec 32) (k : Fin 4) (n : Fin 4194304) : Ideal .f32 :=
  match k with
  | ⟨0, _⟩ => sqTerm (P (ix2 n (0 : Fin 2))) (P (ix2 n (1 : Fin 2))) (T (ix2 n (0 : Fin 1)))
  | ⟨1, _⟩ => widthTerm (P (ix2 n (0 : Fin 2))) (P (ix2 n (1 : Fin 2)))
  | ⟨2, _⟩ => crossTerm (P (ix2 n (0 : Fin 2))) (P (ix2 n (1 : Fin 2)))
  | ⟨3, _⟩ => dirTerm (P (ix2 n (0 : Fin 2))) (P (ix2 n (1 : Fin 2))) (Q (ix2 n (0 : Fin 1))) (D (ix1 n)) (V (ix1 n))

/-- THE LOSS: the combination of the four sums over all the samples, each started from the literal `0.0`. -/
def loss (P : (⟨2, ![4194304, 2]⟩ : Shape).Idx → Ideal .f32) (T Q : (⟨2, ![4194304, 1]⟩ : Shape).Idx → Ideal .f32)
    (D V : (⟨1, ![4194304]⟩ : Shape).Idx → BitVec 32) : Ideal .f32 :=
  combine (zero + ∑ n : Fin 4194304, term P T Q D V 0 n) (zero + ∑ n : Fin 4194304, term P T Q D V 1 n)
    (zero + ∑ n : Fin 4194304, term P T Q D V 2 n) (zero + ∑ n : Fin 4194304, term P T Q D V 3 n)

/-- On one bit, exclusive-or with `1` is the complement. -/
theorem xori_one (b : BitVec 1) : IntOp.xori b 1#1 = ~~~b := by
  revert b; decide

end Cert.Spec

end
-- ==== Proof.LibStackRows.lean ====
/-
  Four rows stacked into a [4, n] array, read at an entry.

  A concatenation along axis 0 of four [1, n] arrays is the [4, n] array whose row `k` is the `k`-th piece: read at
  `(k, l)` it is piece `k` at `(0, l)`. General: the extent `n` and the element type are variables.
-/
import Idealize.ShloMosaic.Lib.Pipeline.Value
import Idealize.ShloMosaic.Lib.ValueIdx

namespace Cert.LibStackRows

open Idealize.ShloMosaic Idealize.ShloMosaic.ValueIdx

variable {α : Type} {n : ℕ}

/-- Row `k` of the stack, given which piece sits at position `k` of the list. -/
theorem stack4_row (v0 v1 v2 v3 : (⟨2, ![1, n]⟩ : Shape).Idx → α)
    (h : Shape.Concatenates [(⟨2, ![1, n]⟩ : Shape), ⟨2, ![1, n]⟩, ⟨2, ![1, n]⟩, ⟨2, ![1, n]⟩] ⟨2, ![4, n]⟩ 0)
    (k : Fin 4) (l : Fin n) (x : (⟨2, ![1, n]⟩ : Shape).Idx → α)
    (hx : ([⟨⟨2, ![1, n]⟩, v0⟩, ⟨⟨2, ![1, n]⟩, v1⟩, ⟨⟨2, ![1, n]⟩, v2⟩, ⟨⟨2, ![1, n]⟩, v3⟩] :
      List ((s : Shape) × (s.Idx → α)))[k.val]'(k.isLt) = ⟨⟨2, ![1, n]⟩, x⟩) :
    concatenate (⟨2, ![4, n]⟩ : Shape) 0 [⟨⟨2, ![1, n]⟩, v0⟩, ⟨⟨2, ![1, n]⟩, v1⟩, ⟨⟨2, ![1, n]⟩, v2⟩, ⟨⟨2, ![1, n]⟩, v3⟩] h
      (ix2 k l) = x (ix2 (0 : Fin 1) l) := by
  refine concatenate_apply_piece (t := (⟨2, ![4, n]⟩ : Shape)) (0 : Fin 2)
    [⟨⟨2, ![1, n]⟩, v0⟩, ⟨⟨2, ![1, n]⟩, v1⟩, ⟨⟨2, ![1, n]⟩, v2⟩, ⟨⟨2, ![1, n]⟩, v3⟩] h (ix2 k l) k.val k.isLt ⟨2, ![1, n]⟩ x hx rfl k.val ?_
    (ix2 (0 : Fin 1) l) ?_ ?_
  · match k with
    | ⟨0, _⟩ => rfl
    | ⟨1, _⟩ => rfl
    | ⟨2, _⟩ => rfl
    | ⟨3, _⟩ => rfl
  · intro b hb
    match b with
    | ⟨0, _⟩ => exact absurd rfl hb
    | ⟨1, _⟩ => rfl
  · show k.val + 0 = k.val
    omega

/-- The four rows, one by one. -/
theorem stack4_at (v0 v1 v2 v3 : (⟨2, ![1, n]⟩ : Shape).Idx → α)
    (h : Shape.Concatenates [(⟨2, ![1, n]⟩ : Shape), ⟨2, ![1, n]⟩, ⟨2, ![1, n]⟩, ⟨2, ![1, n]⟩] ⟨2, ![4, n]⟩ 0) (l : Fin n) :
    concatenate (⟨2, ![4, n]⟩ : Shape) 0 [⟨⟨2, ![1, n]⟩, v0⟩, ⟨⟨2, ![1, n]⟩, v1⟩, ⟨⟨2, ![1, n]⟩, v2⟩, ⟨⟨2, ![1, n]⟩, v3⟩] h
        (ix2 (0 : Fin 4) l) = v0 (ix2 (0 : Fin 1) l)
    ∧ concatenate (⟨2, ![4, n]⟩ : Shape) 0 [⟨⟨2, ![1, n]⟩, v0⟩, ⟨⟨2, ![1, n]⟩, v1⟩, ⟨⟨2, ![1, n]⟩, v2⟩, ⟨⟨2, ![1, n]⟩, v3⟩] h
        (ix2 (1 : Fin 4) l) = v1 (ix2 (0 : Fin 1) l)
    ∧ concatenate (⟨2, ![4, n]⟩ : Shape) 0 [⟨⟨2, ![1, n]⟩, v0⟩, ⟨⟨2, ![1, n]⟩, v1⟩, ⟨⟨2, ![1, n]⟩, v2⟩, ⟨⟨2, ![1, n]⟩, v3⟩] h
        (ix2 (2 : Fin 4) l) = v2 (ix2 (0 : Fin 1) l)
    ∧ concatenate (⟨2, ![4, n]⟩ : Shape) 0 [⟨⟨2, ![1, n]⟩, v0⟩, ⟨⟨2, ![1, n]⟩, v1⟩, ⟨⟨2, ![1, n]⟩, v2⟩, ⟨⟨2, ![1, n]⟩, v3⟩] h
        (ix2 (3 : Fin 4) l) = v3 (ix2 (0 : Fin 1) l) :=
  ⟨stack4_row v0 v1 v2 v3 h 0 l v0 rfl, stack4_row v0 v1 v2 v3 h 1 l v1 rfl, stack4_row v0 v1 v2 v3 h 2 l v2 rfl,
    stack4_row v0 v1 v2 v3 h 3 l v3 rfl⟩

end Cert.LibStackRows
-- ==== Proof.Cells.lean ====
/-
  One slab's update of the accumulator, read at an entry over the extended reals.

  Row `k` of the update at lane `l` is the row as it was plus the sum, over the slab's 2048 rows `r`, of the
  `k`-th loss term of the sample at `(r, l)`: the squared distance from the centre (row 0), the width (row 1), the
  inversion (row 2), the directional penalty (row 3).
-/
import proofs.«149313_j43645457662200_2_alg».proof.Proof.Pieces
import proofs.«149313_j43645457662200_2_alg».proof.Proof.Spec
import proofs.«149313_j43645457662200_2_alg».proof.Proof.LibStackRows
import Idealize.ShloMosaic.Lib.ValueLayout
import Idealize.ShloMosaic.PureOps.Ideal.Laws

noncomputable section

open Idealize.ShloMosaic Idealize.ShloMosaic.TcCoe Idealize.SL.Sem
open Idealize.ShloMosaic.ValueIdx
open scoped BigOperators

namespace Cert.KernelIdeal.Accum

open Cert.KernelIdeal Cert.KernelIdeal.Gen

/-- Putting row `r` back into the lane index `l` gives the block index `(r, l)`. -/
theorem lift_eq (h : S2048x128.Reduces [0] S128) (l : Fin 128) (r : Fin 2048) : h.lift (ix1 l) r = ix2 r l := by
  funext a
  match a with
  | ⟨0, _⟩ => exact Fin.ext rfl
  | ⟨1, _⟩ => exact Fin.ext rfl

/-- A block summed over its rows, then given a leading unit axis: at lane `l` the sum over the rows of the block
    at `(r, l)`. -/
theorem laneSum_at (v : FVec Ideal S2048x128 .f32) (h : S2048x128.Reduces [0] S128) (hφ : FKind.Formats .f32)
    (hacc : (0x00000000#32 : BitVec 32) = FKind.add.neutral .f32 hφ) (hc : S128.ShapeCasts S1x128) (l : Fin 128) :
    shapeCast S1x128 (multiReduction .add [0] S128 v 0x00000000#32 h hφ hacc) hc (ix2 (0 : Fin 1) l)
      = ∑ r : Fin 2048, v (ix2 r l) := by
  refine (shapeCast_a_1a_apply _ hc (0 : Fin 1) l).trans ?_
  refine (Ideal.multiReduction_add_single v _ h hφ hacc (ix1 l)).trans ?_
  exact Finset.sum_congr rfl fun r _ => congrArg v (lift_eq h l r)

variable (x0 x1 x2 x3 : Vec Ideal S2048x128 .f32) (x4 x5 : Vec Ideal S2048x128 .i32) (a : Vec Ideal S4x128 .f32)

/-- Row 0: the squared distances of the targets from the centres. -/
theorem slabUpdate_row0 (l : Fin 128) :
    slabUpdate x0 x1 x2 x3 x4 x5 a (ix2 (0 : Fin 4) l)
      = a (ix2 (0 : Fin 4) l) + ∑ r : Fin 2048, Spec.sqTerm (x0 (ix2 r l)) (x1 (ix2 r l)) (x2 (ix2 r l)) := by
  unfold slabUpdate k0_pay1
  rw [shapeCast_self]
  refine (addf_apply _ _ _).trans (congrArg (a (ix2 (0 : Fin 4) l) + ·) ?_)
  refine (Cert.LibStackRows.stack4_at _ _ _ _ _ l).1.trans ?_
  unfold k0_pay7
  refine (laneSum_at _ _ _ _ _ l).trans (Finset.sum_congr rfl fun r _ => ?_)
  simp only [k0_pay6, k0_pay3, k0_pay4, shapeCast_self]
  rfl

/-- Row 1: the widths. -/
theorem slabUpdate_row1 (l : Fin 128) :
    slabUpdate x0 x1 x2 x3 x4 x5 a (ix2 (1 : Fin 4) l)
      = a (ix2 (1 : Fin 4) l) + ∑ r : Fin 2048, Spec.widthTerm (x0 (ix2 r l)) (x1 (ix2 r l)) := by
  unfold slabUpdate k0_pay1
  rw [shapeCast_self]
  refine (addf_apply _ _ _).trans (congrArg (a (ix2 (1 : Fin 4) l) + ·) ?_)
  refine (Cert.LibStackRows.stack4_at _ _ _ _ _ l).2.1.trans ?_
  unfold k0_pay8
  refine (laneSum_at _ _ _ _ _ l).trans (Finset.sum_congr rfl fun r _ => ?_)
  simp only [k0_pay3, k0_pay4, shapeCast_self]
  rfl

/-- Row 2: the inversions. -/
theorem slabUpdate_row2 (l : Fin 128) :
    slabUpdate x0 x1 x2 x3 x4 x5 a (ix2 (2 : Fin 4) l)
      = a (ix2 (2 : Fin 4) l) + ∑ r : Fin 2048, Spec.crossTerm (x0 (ix2 r l)) (x1 (ix2 r l)) := by
  unfold slabUpdate k0_pay1
  rw [shapeCast_self]
  refine (addf_apply _ _ _).trans (congrArg (a (ix2 (2 : Fin 4) l) + ·) ?_)
  refine (Cert.LibStackRows.stack4_at _ _ _ _ _ l).2.2.1.trans ?_
  unfold k0_pay9
  refine (laneSum_at _ _ _ _ _ l).trans (Finset.sum_congr rfl fun r _ => ?_)
  simp only [k0_pay3, k0_pay4, shapeCast_self]
  rfl

/-- Row 3: the directional penalties. -/
theorem slabUpdate_row3 (l : Fin 128) :
    slabUpdate x0 x1 x2 x3 x4 x5 a (ix2 (3 : Fin 4) l)
      = a (ix2 (3 : Fin 4) l)
        + ∑ r : Fin 2048, Spec.dirTerm (x0 (ix2 r l)) (x1 (ix2 r l)) (x3 (ix2 r l)) (x4 (ix2 r l)) (x5 (ix2 r l)) := by
  unfold slabUpdate k0_pay1
  rw [shapeCast_self]
  refine (addf_apply _ _ _).trans (congrArg (a (ix2 (3 : Fin 4) l) + ·) ?_)
  refine (Cert.LibStackRows.stack4_at _ _ _ _ _ l).2.2.2.trans ?_
  refine (laneSum_at _ _ _ _ _ l).trans (Finset.sum_congr rfl fun r _ => ?_)
  simp only [k0_pay12, k0_pay13, k0_pay10, k0_pay11, k0_pay6, k0_pay5, k0_pay3, k0_pay4, shapeCast_self]
  rfl

/-- The slab's contribution to row `k` at lane `l`: the sum over the slab's rows of the `k`-th loss term. -/
def rowTerm (k : Fin 4) (l : Fin 128) : Ideal .f32 :=
  match k with
  | ⟨0, _⟩ => ∑ r : Fin 2048, Spec.sqTerm (x0 (ix2 r l)) (x1 (ix2 r l)) (x2 (ix2 r l))
  | ⟨1, _⟩ => ∑ r : Fin 2048, Spec.widthTerm (x0 (ix2 r l)) (x1 (ix2 r l))
  | ⟨2, _⟩ => ∑ r : Fin 2048, Spec.crossTerm (x0 (ix2 r l)) (x1 (ix2 r l))
  | ⟨3, _⟩ => ∑ r : Fin 2048, Spec.dirTerm (x0 (ix2 r l)) (x1 (ix2 r l)) (x3 (ix2 r l)) (x4 (ix2 r l)) (x5 (ix2 r l))

/-- Every row at once: the row as it was plus the slab's contribution. -/
theorem slabUpdate_at (k : Fin 4) (l : Fin 128) :
    slabUpdate x0 x1 x2 x3 x4 x5 a (ix2 k l) = a (ix2 k l) + rowTerm x0 x1 x2 x3 x4 x5 k l := by
  match k with
  | ⟨0, _⟩ => exact slabUpdate_row0 x0 x1 x2 x3 x4 x5 a l
  | ⟨1, _⟩ => exact slabUpdate_row1 x0 x1 x2 x3 x4 x5 a l
  | ⟨2, _⟩ => exact slabUpdate_row2 x0 x1 x2 x3 x4 x5 a l
  | ⟨3, _⟩ => exact slabUpdate_row3 x0 x1 x2 x3 x4 x5 a l

/-- The zero fill's first four rows hold the real number zero. -/
theorem top_zeros (k : Fin 4) (l : Fin 128) : top (zeros (F := Ideal)) (ix2 k l) = 0 := by
  rw [top_apply]
  exact Ideal.ofBits_zero_f32

end Cert.KernelIdeal.Accum

end
-- ==== Proof.LibBlockSum.lean ====
/-
  A finite sum taken block by block.

  A sum over `N = nb · B` consecutive positions is the sum, over the `nb` blocks of `B` consecutive positions, of the
  block sums: position `B · s + k` is position `k` of block `s`. General: nothing here mentions a program.
-/
import Idealize.ShloMosaic.Lib.ValueIdx

namespace Cert.LibBlockSum

open scoped BigOperators

/-- Position `k` of block `s` is below `nb · B`. -/
theorem block_lt {nb B : ℕ} (s : Fin nb) (k : Fin B) : B * s.val + k.val < nb * B := by
  have hs := s.isLt
  have hk := k.isLt
  calc B * s.val + k.val < B * s.val + B := by omega
    _ = B * (s.val + 1) := by ring
    _ ≤ B * nb := Nat.mul_le_mul_left B hs
    _ = nb * B := Nat.mul_comm _ _

/-- The sum over `N = nb · B` positions, block by block. -/
theorem sum_fin_blocks {M : Type*} [AddCommMonoid M] (nb B N : ℕ) (hN : nb * B = N) (f : Fin N → M) :
    ∑ q, f q = ∑ s : Fin nb, ∑ k : Fin B, f ⟨B * s.val + k.val, hN ▸ block_lt s k⟩ := by
  subst hN
  rw [← Equiv.sum_comp finProdFinEquiv f, Fintype.sum_prod_type]
  refine Finset.sum_congr rfl fun s _ => Finset.sum_congr rfl fun k _ => congrArg f (Fin.ext ?_)
  show k.val + B * s.val = B * s.val + k.val
  omega

end Cert.LibBlockSum
-- ==== Proof.Sums.lean ====
/-
  Regrouping a sum over 4194304 consecutive samples.

  The samples are laid out as 32768 rows of 128 lanes, and the rows are taken in 16 slabs of 2048 rows: sample
  `128 * (2048 * s + r) + l` is lane `l` of row `r` of slab `s`. Addition in a commutative monoid may be regrouped
  freely, so the sum over all samples is the sum over the lanes of the sum over the slabs of the sum over a slab's rows.
  Also here: a running total that starts at its first term and adds one term per step is the sum of the terms so far.
-/
import Idealize.ShloMosaic.Lib.ValueIdx
import proofs.«149313_j43645457662200_2_alg».proof.Proof.LibBlockSum

namespace Cert.Sums

open scoped BigOperators

/-- Lane `l` of row `r` of slab `s` is one of the 4194304 samples. -/
theorem pos_lt (s : Fin 16) (r : Fin 2048) (l : Fin 128) : 128 * (2048 * s.val + r.val) + l.val < 4194304 := by
  have := s.isLt; have := r.isLt; have := l.isLt; omega

/-- The sample at lane `l` of row `r` of slab `s`. -/
def pos (s : Fin 16) (r : Fin 2048) (l : Fin 128) : Fin 4194304 := ⟨128 * (2048 * s.val + r.val) + l.val, pos_lt s r l⟩

/-- The row of the whole array that row `r` of slab `s` is. -/
def rowOf (s : Fin 16) (r : Fin 2048) : Fin 32768 := ⟨2048 * s.val + r.val, by have := s.isLt; have := r.isLt; omega⟩

theorem pos_val (s : Fin 16) (r : Fin 2048) (l : Fin 128) : (pos s r l).val = 128 * (rowOf s r).val + l.val := rfl

/-- The sum over all samples, lane by lane, slab by slab, row by row. -/
theorem sum_slabs {M : Type*} [AddCommMonoid M] (f : Fin 4194304 → M) :
    ∑ n, f n = ∑ l : Fin 128, ∑ s : Fin 16, ∑ r : Fin 2048, f (pos s r l) := by
  have h1 : ∑ n, f n = ∑ R : Fin 32768, ∑ l : Fin 128,
      f ⟨128 * R.val + l.val, by have := R.isLt; have := l.isLt; omega⟩ :=
    Cert.LibBlockSum.sum_fin_blocks 32768 128 4194304 (by norm_num) f
  have h2 : ∀ g : Fin 32768 → M, ∑ R, g R = ∑ s : Fin 16, ∑ r : Fin 2048, g (rowOf s r) :=
    fun g => Cert.LibBlockSum.sum_fin_blocks 16 2048 32768 (by norm_num) g
  rw [h1, h2]
  calc ∑ s : Fin 16, ∑ r : Fin 2048, ∑ l : Fin 128, f (pos s r l)
      = ∑ s : Fin 16, ∑ l : Fin 128, ∑ r : Fin 2048, f (pos s r l) :=
        Finset.sum_congr rfl fun s _ => Finset.sum_comm
    _ = ∑ l : Fin 128, ∑ s : Fin 16, ∑ r : Fin 2048, f (pos s r l) := Finset.sum_comm

/-- A sum over the entries of a one-column array is the sum over its rows. -/
theorem sum_column {M : Type*} [AddCommMonoid M] {n : ℕ} (f : (⟨2, ![n, 1]⟩ : Idealize.ShloMosaic.Shape).Idx → M) :
    ∑ j, f j = ∑ a : Fin n, f (Idealize.ShloMosaic.ValueIdx.ix2 a (0 : Fin 1)) := by
  rw [Idealize.ShloMosaic.ValueIdx.sum_idx2]
  exact Finset.sum_congr rfl fun a _ => Fin.sum_univ_one _

/-- A sum over the entries of a vector is the sum over its positions. -/
theorem sum_vector {M : Type*} [AddCommMonoid M] {n : ℕ} (f : (⟨1, ![n]⟩ : Idealize.ShloMosaic.Shape).Idx → M) :
    ∑ j, f j = ∑ a : Fin n, f (Idealize.ShloMosaic.ValueIdx.ix1 a) := by
  refine (Equiv.sum_comp (⟨fun a => Idealize.ShloMosaic.ValueIdx.ix1 a, fun j => j 0,
    fun a => rfl, fun j => (Idealize.ShloMosaic.ValueIdx.eq_ix1 j).symm⟩ : Fin n ≃ (⟨1, ![n]⟩ : Idealize.ShloMosaic.Shape).Idx) f).symm

/-- A running total: it starts at its first term and gains one term per step, so after step `n` it is the sum of the
    terms up to `n`. The terms past a bound `N` are never looked at. -/
theorem running_total {M : Type*} [AddCommMonoid M] (N : ℕ) (a c : ℕ → M) (h0 : a 0 = c 0)
    (hs : ∀ n, n + 1 < N → a (n + 1) = a n + c (n + 1)) : ∀ n, n < N → a n = ∑ s ∈ Finset.range (n + 1), c s
  | 0, _ => by rw [h0]; simp
  | n + 1, h => by
    rw [hs n h, running_total N a c h0 hs n (by omega), Finset.sum_range_succ _ (n + 1)]

end Cert.Sums
-- ==== Proof.Blocks.lean ====
/-
  The slabs the kernel reads, as entries of the argument arrays.

  Before the kernel runs, each column of samples is re-laid as a [32768, 128] array in row-major order: entry
  `(R, l)` is sample `128 R + l` (the two columns of the interval bounds are cut out of the [4194304, 2] array first).
  Grid point `t` reads rows `2048 t … 2048 t + 2047` of each. So entry `(r, l)` of a block at point `t` is the
  argument at sample `128 (2048 t + r) + l`.
-/
import proofs.«149313_j43645457662200_2_alg».proof.Proof.Gen.KernelIdeal.Frame
import proofs.«149313_j43645457662200_2_alg».proof.Proof.Sums
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-! ## The re-laid arrays at an entry -/

/-- Entry `(R, l)` of a vector of 4194304 re-laid as [32768, 128] is entry `128 R + l` of the vector. -/
theorem relay_at {α : Type} (x : S4194304.Idx → α) (h : S4194304.ShapeCasts S32768x128) (R : Fin 32768) (l : Fin 128) :
    shapeCast S32768x128 x h (ix2 R l)
      = x (ix1 (⟨128 * R.val + l.val, by have := R.isLt; have := l.isLt; omega⟩ : Fin 4194304)) :=
  shapeCast_apply x h _ _ (by
    rw [Shape.rowMajor_val_two, Shape.rowMajor_val_one]
    show 128 * R.val + l.val = R.val * 128 + l.val
    omega)

/-- Entry `n` of a [4194304, 1] column flattened to a vector is entry `(n, 0)` of the column. -/
theorem flatten_at {α : Type} (x : S4194304x1.Idx → α) (h : S4194304x1.ShapeCasts S4194304) (n : Fin 4194304) :
    shapeCast S4194304 x h (ix1 n) = x (ix2 n (0 : Fin 1)) :=
  shapeCast_apply x h _ _ (by
    rw [Shape.rowMajor_val_two, Shape.rowMajor_val_one]
    show n.val * 1 + 0 = n.val
    omega)

/-- Column `j` of the [4194304, 2] array, cut out as a [4194304, 1] column. -/
theorem column_at {α : Type} (x : S4194304x2.Idx → α) (j : Fin 2) (h : S4194304x2.Slices ![0, j.val] S4194304x1)
    (n : Fin 4194304) : extractStridedSlice S4194304x1 ![0, j.val] x h (ix2 n (0 : Fin 1)) = x (ix2 n j) :=
  extractStridedSlice_apply _ x h _ _ (fun a => by
    match a with
    | ⟨0, _⟩ => exact (Nat.zero_add _).symm
    | ⟨1, _⟩ => rfl)

/-- The sample at row `R`, lane `l` of the re-laid arrays. -/
def sample (R : Fin 32768) (l : Fin 128) : Fin 4194304 :=
  ⟨128 * R.val + l.val, by have := R.isLt; have := l.isLt; omega⟩

/-- The lower bounds as the kernel finds them: entry `(R, l)` is column 0 of the bounds at that sample. -/
theorem V_lower (c : Dev nD) (R : Fin 32768) (l : Fin 128) :
    (V m c main_v2 : S32768x128.Idx → Elt F .f32) (ix2 R l)
      = m ((c : Thread nD τ).loc main_arg0) (ix2 (sample R l) (0 : Fin 2)) := by
  have e : (V m c main_v2 : S32768x128.Idx → Elt F .f32)
      = shapeCast S32768x128 (shapeCast S4194304 (extractStridedSlice S4194304x1 ![0, 0]
          (m ((c : Thread nD τ).loc main_arg0)) slices_S4194304x2_S4194304x1_0_0) shapeCasts_S4194304x1_S4194304)
          shapeCasts_S4194304_S32768x128 := by
    show StableHlo.after hostOps0 (fun b => m (c, b)) (Proc.devRef .tc main_v2) = _
    after_results; rfl
  rw [e, relay_at, flatten_at]
  exact column_at _ (0 : Fin 2) _ _

/-- The upper bounds: column 1 of the bounds at that sample. -/
theorem V_upper (c : Dev nD) (R : Fin 32768) (l : Fin 128) :
    (V m c main_v5 : S32768x128.Idx → Elt F .f32) (ix2 R l)
      = m ((c : Thread nD τ).loc main_arg0) (ix2 (sample R l) (1 : Fin 2)) := by
  have e : (V m c main_v5 : S32768x128.Idx → Elt F .f32)
      = shapeCast S32768x128 (shapeCast S4194304 (extractStridedSlice S4194304x1 ![0, 1]
          (m ((c : Thread nD τ).loc main_arg0)) slices_S4194304x2_S4194304x1_0_1) shapeCasts_S4194304x1_S4194304)
          shapeCasts_S4194304_S32768x128 := by
    show StableHlo.after hostOps0 (fun b => m (c, b)) (Proc.devRef .tc main_v5) = _
    after_results; rfl
  rw [e, relay_at, flatten_at]
  exact column_at _ (1 : Fin 2) _ _

/-- The targets: the target column at that sample. -/
theorem V_target (c : Dev nD) (R : Fin 32768) (l : Fin 128) :
    (V m c main_v7 : S32768x128.Idx → Elt F .f32) (ix2 R l)
      = m ((c : Thread nD τ).loc main_arg1) (ix2 (sample R l) (0 : Fin 1)) := by
  have e : (V m c main_v7 : S32768x128.Idx → Elt F .f32)
      = shapeCast S32768x128 (shapeCast S4194304 (m ((c : Thread nD τ).loc main_arg1)) shapeCasts_S4194304x1_S4194304)
          shapeCasts_S4194304_S32768x128 := by
    show StableHlo.after hostOps0 (fun b => m (c, b)) (Proc.devRef .tc main_v7) = _
    after_results; rfl
  rw [e, relay_at, flatten_at]
  rfl

/-- The previous values: their column at that sample. -/
theorem V_prev (c : Dev nD) (R : Fin 32768) (l : Fin 128) :
    (V m c main_v9 : S32768x128.Idx → Elt F .f32) (ix2 R l)
      = m ((c : Thread nD τ).loc main_arg2) (ix2 (sample R l) (0 : Fin 1)) := by
  have e : (V m c main_v9 : S32768x128.Idx → Elt F .f32)
      = shapeCast S32768x128 (shapeCast S4194304 (m ((c : Thread nD τ).loc main_arg2)) shapeCasts_S4194304x1_S4194304)
          shapeCasts_S4194304_S32768x128 := by
    show StableHlo.after hostOps0 (fun b => m (c, b)) (Proc.devRef .tc main_v9) = _
    after_results; rfl
  rw [e, relay_at, flatten_at]
  rfl

/-- The first flag vector at that sample. -/
theorem V_dt (c : Dev nD) (R : Fin 32768) (l : Fin 128) :
    (V m c main_v10 : S32768x128.Idx → Elt F .i32) (ix2 R l)
      = m ((c : Thread nD τ).loc main_arg3) (ix1 (sample R l)) := by
  have e : (V m c main_v10 : S32768x128.Idx → Elt F .i32)
      = shapeCast S32768x128 (m ((c : Thread nD τ).loc main_arg3)) shapeCasts_S4194304_S32768x128 := by
    show StableHlo.after hostOps0 (fun b => m (c, b)) (Proc.devRef .tc main_v10) = _
    after_results; rfl
  rw [e, relay_at]
  rfl

/-- The second flag vector at that sample. -/
theorem V_pv (c : Dev nD) (R : Fin 32768) (l : Fin 128) :
    (V m c main_v11 : S32768x128.Idx → Elt F .i32) (ix2 R l)
      = m ((c : Thread nD τ).loc main_arg4) (ix1 (sample R l)) := by
  have e : (V m c main_v11 : S32768x128.Idx → Elt F .i32)
      = shapeCast S32768x128 (m ((c : Thread nD τ).loc main_arg4)) shapeCasts_S4194304_S32768x128 := by
    show StableHlo.after hostOps0 (fun b => m (c, b)) (Proc.devRef .tc main_v11) = _
    after_results; rfl
  rw [e, relay_at]
  rfl

/-! ## The blocks -/

/-- Row `r` of the slab of grid point `t`, as a row of the whole array. -/
def slabRow (t : Fin cfg0.N) (r : Fin 2048) : Fin 32768 :=
  ⟨2048 * t.val + r.val, by have := lt_of_lt_of_eq t.isLt (show cfg0.N = 16 from N_0); have := r.isLt; omega⟩

/-- Every input's block index at point `t` is `(t, 0)`: decided over the sixteen points. -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_facts2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_facts3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx_facts4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx_facts5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- Window 0's block at point `t`, at `(r, l)`: its array at row `2048 t + r`, lane `l`. -/
theorem iblk0_at (c : Dev nD) (t : Fin cfg0.N) (r : Fin 2048) (l : Fin 128) :
    (iblk m c 0 t : Vec F S2048x128 .f32) (ix2 r l) = V m c main_v2 (ix2 (slabRow t r) l) := by
  have hi := idx_facts0 t
  unfold iblk
  rw [View.read_apply]
  show V m c main_v2 _ = V m c main_v2 _
  congr 1
  funext a
  apply Fin.ext
  match a with
  | ⟨0, _⟩ => show win0_0.index t 0 * 2048 + 1 * r.val = 2048 * t.val + r.val; rw [hi.1]; omega
  | ⟨1, _⟩ => show win0_0.index t 1 * 128 + 1 * l.val = l.val; rw [hi.2]; omega

/-- Window 1's block at point `t`, at `(r, l)`: its array at row `2048 t + r`, lane `l`. -/
theorem iblk1_at (c : Dev nD) (t : Fin cfg0.N) (r : Fin 2048) (l : Fin 128) :
    (iblk m c 1 t : Vec F S2048x128 .f32) (ix2 r l) = V m c main_v5 (ix2 (slabRow t r) l) := by
  have hi := idx_facts1 t
  unfold iblk
  rw [View.read_apply]
  show V m c main_v5 _ = V m c main_v5 _
  congr 1
  funext a
  apply Fin.ext
  match a with
  | ⟨0, _⟩ => show win0_1.index t 0 * 2048 + 1 * r.val = 2048 * t.val + r.val; rw [hi.1]; omega
  | ⟨1, _⟩ => show win0_1.index t 1 * 128 + 1 * l.val = l.val; rw [hi.2]; omega

/-- Window 2's block at point `t`, at `(r, l)`: its array at row `2048 t + r`, lane `l`. -/
theorem iblk2_at (c : Dev nD) (t : Fin cfg0.N) (r : Fin 2048) (l : Fin 128) :
    (iblk m c 2 t : Vec F S2048x128 .f32) (ix2 r l) = V m c main_v7 (ix2 (slabRow t r) l) := by
  have hi := idx_facts2 t
  unfold iblk
  rw [View.read_apply]
  show V m c main_v7 _ = V m c main_v7 _
  congr 1
  funext a
  apply Fin.ext
  match a with
  | ⟨0, _⟩ => show win0_2.index t 0 * 2048 + 1 * r.val = 2048 * t.val + r.val; rw [hi.1]; omega
  | ⟨1, _⟩ => show win0_2.index t 1 * 128 + 1 * l.val = l.val; rw [hi.2]; omega

/-- Window 3's block at point `t`, at `(r, l)`: its array at row `2048 t + r`, lane `l`. -/
theorem iblk3_at (c : Dev nD) (t : Fin cfg0.N) (r : Fin 2048) (l : Fin 128) :
    (iblk m c 3 t : Vec F S2048x128 .f32) (ix2 r l) = V m c main_v9 (ix2 (slabRow t r) l) := by
  have hi := idx_facts3 t
  unfold iblk
  rw [View.read_apply]
  show V m c main_v9 _ = V m c main_v9 _
  congr 1
  funext a
  apply Fin.ext
  match a with
  | ⟨0, _⟩ => show win0_3.index t 0 * 2048 + 1 * r.val = 2048 * t.val + r.val; rw [hi.1]; omega
  | ⟨1, _⟩ => show win0_3.index t 1 * 128 + 1 * l.val = l.val; rw [hi.2]; omega

/-- Window 4's block at point `t`, at `(r, l)`: its array at row `2048 t + r`, lane `l`. -/
theorem iblk4_at (c : Dev nD) (t : Fin cfg0.N) (r : Fin 2048) (l : Fin 128) :
    (iblk m c 4 t : Vec F S2048x128 .i32) (ix2 r l) = V m c main_v10 (ix2 (slabRow t r) l) := by
  have hi := idx_facts4 t
  unfold iblk
  rw [View.read_apply]
  show V m c main_v10 _ = V m c main_v10 _
  congr 1
  funext a
  apply Fin.ext
  match a with
  | ⟨0, _⟩ => show win0_4.index t 0 * 2048 + 1 * r.val = 2048 * t.val + r.val; rw [hi.1]; omega
  | ⟨1, _⟩ => show win0_4.index t 1 * 128 + 1 * l.val = l.val; rw [hi.2]; omega

/-- Window 5's block at point `t`, at `(r, l)`: its array at row `2048 t + r`, lane `l`. -/
theorem iblk5_at (c : Dev nD) (t : Fin cfg0.N) (r : Fin 2048) (l : Fin 128) :
    (iblk m c 5 t : Vec F S2048x128 .i32) (ix2 r l) = V m c main_v11 (ix2 (slabRow t r) l) := by
  have hi := idx_facts5 t
  unfold iblk
  rw [View.read_apply]
  show V m c main_v11 _ = V m c main_v11 _
  congr 1
  funext a
  apply Fin.ext
  match a with
  | ⟨0, _⟩ => show win0_5.index t 0 * 2048 + 1 * r.val = 2048 * t.val + r.val; rw [hi.1]; omega
  | ⟨1, _⟩ => show win0_5.index t 1 * 128 + 1 * l.val = l.val; rw [hi.2]; omega

end Cert.KernelIdeal.Blocks

end
-- ==== Proof.Invariant.lean ====
/-
  The accumulator after every grid point, over the extended reals.

  After grid point `n` the entry `(k, l)` of the accumulator's first four rows is the sum, over the slabs
  `0 … n`, of the slab's sum over its rows of the `k`-th loss term of the sample at that row and lane `l`. It is
  proved by induction on the point: the first point zeroes the accumulator and adds its slab, every later point adds
  its slab to what the point before left. The terms are written over the argument arrays themselves: the sample at
  row `r` of slab `s` and lane `l` is sample `128 (2048 s + r) + l`.
-/
import proofs.«149313_j43645457662200_2_alg».proof.Proof.Cells
import proofs.«149313_j43645457662200_2_alg».proof.Proof.Blocks

noncomputable section

open Idealize.ShloMosaic Idealize.ShloMosaic.TcCoe Idealize.SL.Sem
open Idealize.ShloMosaic.ValueIdx
open scoped BigOperators

namespace Cert.KernelIdeal.Accum

open Cert.KernelIdeal Cert.KernelIdeal.Gen Cert.KernelIdeal.Blocks

variable (m : (ℓ : Loc nD τ sig) → Buf (Elt Ideal) ℓ)

/-- The `k`-th loss term of sample `n` of the launch memory's arguments on core `c`. -/
abbrev termOf (c : Dev nD) (k : Fin 4) (n : Fin 4194304) : Ideal .f32 :=
  Spec.term (m ((c : Thread nD τ).loc main_arg0)) (m ((c : Thread nD τ).loc main_arg1)) (m ((c : Thread nD τ).loc main_arg2))
    (m ((c : Thread nD τ).loc main_arg3)) (m ((c : Thread nD τ).loc main_arg4)) k n

/-- Slab `s`'s contribution to entry `(k, l)` (nothing past the sixteenth slab). -/
def slabSum (c : Dev nD) (k : Fin 4) (l : Fin 128) (s : ℕ) : Ideal .f32 :=
  if h : s < 16 then ∑ r : Fin 2048, termOf m c k (Cert.Sums.pos ⟨s, h⟩ r l) else 0

/-- The sample the kernel reads at row `r` of point `t`'s slab, lane `l`. -/
theorem sample_slabRow (t : Fin cfg0.N) (h : t.val < 16) (r : Fin 2048) (l : Fin 128) :
    sample (slabRow t r) l = Cert.Sums.pos ⟨t.val, h⟩ r l := Fin.ext rfl

/-- What the slab of point `t` adds to entry `(k, l)`, over the arguments. -/
theorem rowTerm_eq (c : Dev nD) (t : Fin cfg0.N) (k : Fin 4) (l : Fin 128) :
    rowTerm (iblk m c 0 t) (iblk m c 1 t) (iblk m c 2 t) (iblk m c 3 t) (iblk m c 4 t) (iblk m c 5 t) k l
      = slabSum m c k l t.val := by
  have ht : t.val < 16 := lt_of_lt_of_eq t.isLt (show cfg0.N = 16 from N_0)
  unfold slabSum
  rw [dif_pos ht]
  match k with
  | ⟨0, _⟩ =>
    refine Finset.sum_congr rfl fun r _ => ?_
    rw [iblk0_at, iblk1_at, iblk2_at, V_lower, V_upper, V_target, sample_slabRow t ht]
    rfl
  | ⟨1, _⟩ =>
    refine Finset.sum_congr rfl fun r _ => ?_
    rw [iblk0_at, iblk1_at, V_lower, V_upper, sample_slabRow t ht]
    rfl
  | ⟨2, _⟩ =>
    refine Finset.sum_congr rfl fun r _ => ?_
    rw [iblk0_at, iblk1_at, V_lower, V_upper, sample_slabRow t ht]
    rfl
  | ⟨3, _⟩ =>
    refine Finset.sum_congr rfl fun r _ => ?_
    rw [iblk0_at, iblk1_at, iblk3_at, iblk4_at, iblk5_at, V_lower, V_upper, V_prev, V_dt, V_pv, sample_slabRow t ht]
    rfl

/-- Row `k` of the first four rows, as a row of the [8, 128] accumulator. -/
abbrev row8 (k : Fin 4) : Fin 8 := ⟨k.val, by omega⟩

/-- THE RUNNING SUMS: after point `n`, entry `(k, l)` of the accumulator is the sum of the slabs' contributions
    so far. -/
theorem acc_eq (c : Dev nD) : ∀ (n : ℕ) (hn : n < cfg0.N) (k : Fin 4) (l : Fin 128),
    (outsAt0 m c n hn).2 (ix2 (row8 k) l) = ∑ s ∈ Finset.range (n + 1), slabSum m c k l s
  | 0, hn, k, l => by
    rw [outsAt0_A m c ⟨0, hn⟩ rfl (by dsimp only; omega)]
    dsimp only
    rw [first_apply, slabUpdate_at, top_zeros, zero_add, rowTerm_eq]
    simp
  | n + 1, hn, k, l => by
    have hN : n + 1 < 16 := lt_of_lt_of_eq hn (show cfg0.N = 16 from N_0)
    have h0 : ¬(⟨n + 1, hn⟩ : Fin cfg0.N).val % 16 = 0 := by dsimp only; omega
    rw [Finset.sum_range_succ _ (n + 1), ← acc_eq c n (Nat.lt_of_succ_lt hn) k l]
    by_cases h1 : (⟨n + 1, hn⟩ : Fin cfg0.N).val % 16 = 15
    · rw [outsAt0_C m c ⟨n + 1, hn⟩ h0 h1]
      dsimp only
      rw [last_apply, slabUpdate_at, top_apply, rowTerm_eq]
      rfl
    · rw [outsAt0_B m c ⟨n + 1, hn⟩ h0 h1]
      dsimp only
      rw [mid_apply, slabUpdate_at, top_apply, rowTerm_eq]
      rfl

end Cert.KernelIdeal.Accum

end
-- ==== Proof.KernelValue.lean ====
/-
  The kernel computes the loss.

  The output block is written back once, after the last grid point, and it is the accumulator; so the [8, 128] result
  array of the kernel ends holding the running sums of all sixteen slabs in its first four rows. The host then sums
  each of those rows over the 128 lanes from the literal `0.0` and combines the four totals. A row's total is the sum
  over the lanes, the slabs and a slab's rows of one loss term, that is, the sum over all the samples regrouped.
-/
import proofs.«149313_j43645457662200_2_alg».proof.Proof.Invariant
import Idealize.ShloMosaic.Lib.StableHlo.Run

noncomputable section

open Idealize.ShloMosaic Idealize.ShloMosaic.TcCoe Idealize.SL.Sem
open Idealize.ShloMosaic.ValueIdx
open Idealize.ShloMosaic.Pipeline (Dat)
open scoped BigOperators

namespace Cert.KernelIdeal.Result

open Cert.KernelIdeal Cert.KernelIdeal.Gen Cert.KernelIdeal.Accum

/-! ## The host's lines after the kernel, as one function of the kernel's result array -/

/-- Row `k` of the result array summed over its lanes, as the host does it: cut the row out, drop the unit axis,
    reduce from `0.0`. -/
def rowTotal {F : FTy → Type} [FloatOps F] (X : FVec F S8x128 .f32) (off : Fin 2 → Nat) (hs : S8x128.Slices off S1x128) :
    FVec F S_ .f32 :=
  Host.reduceAdd (F := F) (shapeCast S128 (extractStridedSlice S1x128 off X hs) shapeCasts_S1x128_S128)
    (constant (F := F) S_ .f32 0x00000000#32) reducesTo_S128_S_d0 h_S_

/-- The host's tail: the four row totals, combined. -/
def hostTail {F : FTy → Type} [FloatOps F] (X : FVec F S8x128 .f32) : FVec F S_ .f32 :=
  addf (addf (addf
      (mulf (Host.divf (F := F) (rowTotal X ![0, 0] slices_S8x128_S1x128_0_0) (constant (F := F) S_ .f32 0x4A800000#32))
        (constant (F := F) S_ .f32 0x3FC00000#32))
      (mulf (constant (F := F) S_ .f32 0x3DCCCCCD#32)
        (Host.divf (F := F) (rowTotal X ![1, 0] slices_S8x128_S1x128_1_0) (constant (F := F) S_ .f32 0x4A800000#32))))
      (mulf (constant (F := F) S_ .f32 0x41200000#32)
        (Host.divf (F := F) (rowTotal X ![2, 0] slices_S8x128_S1x128_2_0) (constant (F := F) S_ .f32 0x4A800000#32))))
    (Host.divf (F := F) (mulf (constant (F := F) S_ .f32 0x3F000000#32) (rowTotal X ![3, 0] slices_S8x128_S1x128_3_0))
      (constant (F := F) S_ .f32 0x4A800000#32))

/-- Over the extended reals a row's total is `0.0` plus the sum of the row's 128 entries. -/
theorem rowTotal_apply (X : FVec Ideal S8x128 .f32) (k : Fin 4) (off : Fin 2 → Nat) (hoff : off = ![k.val, 0])
    (hs : S8x128.Slices off S1x128) (i : S_.Idx) :
    rowTotal X off hs i = Spec.zero + ∑ l : Fin 128, X (ix2 (row8 k) l) := by
  subst hoff
  unfold rowTotal
  generalize hy : shapeCast S128 (extractStridedSlice S1x128 ![k.val, 0] X hs) shapeCasts_S1x128_S128 = y0
  simp only [Host.reduceAdd, Ideal.hostReduceAdd_def]
  refine (Ideal.hostReduceAdd_total reducesTo_S128_S_d0 (fun b => b.elim0) y0 _ i).trans ?_
  refine congrArg (Spec.zero + ·) ?_
  refine (Cert.Sums.sum_vector y0).trans (Finset.sum_congr rfl fun l _ => ?_)
  subst hy
  refine (shapeCast_1a_a_apply _ shapeCasts_S1x128_S128 l).trans ?_
  exact slice2_axis0_apply k.val X hs (0 : Fin 1) l (row8 k) (by show k.val = k.val + 0; omega)

/-- So the host's tail is the combination of the four row totals. -/
theorem hostTail_apply (X : FVec Ideal S8x128 .f32) (i : S_.Idx) :
    hostTail X i = Spec.combine (Spec.zero + ∑ l : Fin 128, X (ix2 (row8 0) l)) (Spec.zero + ∑ l : Fin 128, X (ix2 (row8 1) l))
      (Spec.zero + ∑ l : Fin 128, X (ix2 (row8 2) l)) (Spec.zero + ∑ l : Fin 128, X (ix2 (row8 3) l)) := by
  rw [← rowTotal_apply X 0 ![0, 0] rfl slices_S8x128_S1x128_0_0 i, ← rowTotal_apply X 1 ![1, 0] rfl slices_S8x128_S1x128_1_0 i,
    ← rowTotal_apply X 2 ![2, 0] rfl slices_S8x128_S1x128_2_0 i, ← rowTotal_apply X 3 ![3, 0] rfl slices_S8x128_S1x128_3_0 i]
  unfold hostTail
  generalize rowTotal X ![0, 0] slices_S8x128_S1x128_0_0 = a
  generalize rowTotal X ![1, 0] slices_S8x128_S1x128_1_0 = b
  generalize rowTotal X ![2, 0] slices_S8x128_S1x128_2_0 = c
  generalize rowTotal X ![3, 0] slices_S8x128_S1x128_3_0 = d
  rfl

variable (m : (ℓ : Loc nD τ sig) → Buf (Elt Ideal) ℓ) (ρ : Dev nD → PrngReg)

/-! ## The kernel's result array -/

/-- The accumulator after the last point, as contents of the kernel's result array (its one block is the array). -/
abbrev acc16 (c : Dev nD) : Vec Ideal S8x128 .f32 := (outsAt0 m c t0_15.val t0_15.isLt).2

/-- At the last point the output block is the accumulator. -/
theorem out_last (c : Dev nD) : (outsAt0 m c t0_15.val t0_15.isLt).1 = acc16 m c := by
  show (outsAt0 m c t0_15.val t0_15.isLt).1 = (outsAt0 m c t0_15.val t0_15.isLt).2
  rw [outsAt0_C m c t0_15 (by decide) (by decide)]
  dsimp only
  exact last_out (F := Ideal) ..

/-- The one write-back, at the last point, writes the accumulator: block (0, 0) of the [8, 128] array is the array. -/
theorem flushed_eq (c : Dev nD) (t : Fin cfg0.N) (hf : (cfg0.win 6).flush t = true) :
    (dats m 0 c).flushed 6 t = ((cfg0.win 6).blk t).view.read (Elt Ideal)
      (acc16 m c : Buf (Elt Ideal) ((c : Thread nD τ).loc main_v12)) := by
  have hN : cfg0.N = 16 := N_0
  have h15 : t.val = 15 := by have := (flush0_6 t).mp hf; have := t.isLt; omega
  obtain rfl : t = t0_15 := Fin.ext h15
  show (cfg0.win 6).cut (grid0.coords t0_15) ((dats m 0 c).after 6 t0_15) = _
  rw [after0_6, out_last]
  have hz' : (fun a => win0_6.index t0_15 a * main_v12.ty.shape.size a) = fun _ => 0 :=
    funext fun a => by fin_cases a <;> decide
  exact (Memref.read_access_unit_zero (Elt Ideal) main_v12 hz' (fun a => by rw [congrFun hz' a]; simp)
    (acc16 m c : Buf (Elt Ideal) ((c : Thread nD τ).loc main_v12))).symm

/-- So the result array ends holding the accumulator after the last point. -/
theorem final (c : Dev nD) : (dats m 0 c).arrAt 6 cfg0.N = (acc16 m c : Buf (Elt Ideal) ((c : Thread nD τ).loc main_v12)) :=
  (dats m 0 c).arrAt_eq_of_cover 6 (acc16 m c : Buf (Elt Ideal) ((c : Thread nD τ).loc main_v12)) (flushed_eq m c) fun i =>
    ⟨t0_15, (flush0_6 t0_15).mpr rfl, by
      show i ∈ ((View.whole main_v12).slice (win0_6.rect t0_15)).set
      rw [View.set_slice_whole, Rect.mem_set_unit]
      intro a
      have h0 : (i 0 : Nat) < 8 := (i 0).isLt
      have h1 : (i 1 : Nat) < 128 := (i 1).isLt
      match a with
      | ⟨0, _⟩ => show win0_6.index t0_15 0 * win0_6.size 0 ≤ (i 0 : Nat) ∧ (i 0 : Nat) < win0_6.index t0_15 0 * win0_6.size 0 + win0_6.xsize (grid0.coords t0_15) 0
                  rw [show win0_6.index t0_15 0 * win0_6.size 0 = 0 from by decide +kernel, show win0_6.xsize (grid0.coords t0_15) 0 = 8 from by decide +kernel]; omega
      | ⟨1, _⟩ => show win0_6.index t0_15 1 * win0_6.size 1 ≤ (i 1 : Nat) ∧ (i 1 : Nat) < win0_6.index t0_15 1 * win0_6.size 1 + win0_6.xsize (grid0.coords t0_15) 1
                  rw [show win0_6.index t0_15 1 * win0_6.size 1 = 0 from by decide +kernel, show win0_6.xsize (grid0.coords t0_15) 1 = 128 from by decide +kernel]; omega⟩

/-- Entry `(k, l)` of the result array: the sum over the sixteen slabs and a slab's rows of the `k`-th term. -/
theorem acc16_apply (c : Dev nD) (k : Fin 4) (l : Fin 128) :
    acc16 m c (ix2 (row8 k) l) = ∑ s : Fin 16, ∑ r : Fin 2048, termOf m c k (Cert.Sums.pos s r l) := by
  refine (acc_eq m c t0_15.val t0_15.isLt k l).trans ?_
  show ∑ s ∈ Finset.range 16, slabSum m c k l s = _
  rw [Finset.sum_range]
  refine Finset.sum_congr rfl fun s _ => ?_
  unfold slabSum
  rw [dif_pos s.isLt]

/-- A row's total over the lanes is the sum of the term over all the samples. -/
theorem rowTotal_eq (c : Dev nD) (k : Fin 4) :
    ∑ l : Fin 128, acc16 m c (ix2 (row8 k) l) = ∑ n : Fin 4194304, termOf m c k n := by
  rw [Cert.Sums.sum_slabs]
  exact Finset.sum_congr rfl fun l _ => acc16_apply m c k l

/-! ## The run -/

set_option maxRecDepth 8192 in
set_option maxHeartbeats 4000000 in
/-- The host's lines after the kernel, run from any contents of the buffers, leave the tail of the kernel's result
    array in the program's result. -/
theorem tail_of_valuation (c : Dev nD) (W : Valuation τ sig (Elt Ideal)) :
    StableHlo.after (List.flatten [hostOps1]) W (Proc.devRef .tc main_v35)
      = hostTail (F := Ideal) (W (Proc.devRef .tc main_v12) : FVec Ideal S8x128 .f32) := by
  show StableHlo.after hostOps1 W (Proc.devRef .tc main_v35) = _
  unfold hostTail rowTotal
  after_results_simp <;> rfl

/-- The result array as the host's lines find it. -/
theorem arr_eq (c : Dev nD) :
    Pipeline.withArrays spec0 c (V0 m c) (fun w => (dats m 0 c).arrAt w cfg0.N) (Proc.devRef .tc main_v12)
      = (acc16 m c : Buf (Elt Ideal) ((c : Thread nD τ).loc main_v12)) :=
  (Pipeline.withArrays_arr spec0 launch0.win.arr_inj c (V0 m c) (fun w => (dats m 0 c).arrAt w cfg0.N) 6).trans (final m c)

/-- The host's tail, run on the result array. -/
theorem tail_eq (c : Dev nD) :
    Pipeline.afterTail₀ cfgs (dats m) 0 (V0 m) [hostOps1] c main_v35
      = (hostTail (F := Ideal) (acc16 m c) : Buf (Elt Ideal) ((c : Thread nD τ).loc main_v35)) := by
  unfold Pipeline.afterTail₀
  refine (tail_of_valuation c _).trans ?_
  exact congrArg (fun X : FVec Ideal S8x128 .f32 => hostTail (F := Ideal) X) (arr_eq m c)

/-- The kernel's result is the loss of its arguments. -/
theorem result_eq (c : Dev nD) :
    Pipeline.afterTail₀ cfgs (dats m) 0 (V0 m) [hostOps1] c main_v35
      = fun _ => Spec.loss (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_eq]
  funext i
  rw [hostTail_apply, rowTotal_eq, rowTotal_eq, rowTotal_eq, rowTotal_eq]
  rfl

/-- Every weakly fair execution of the idealized kernel program terminates with its result at the loss of the
    arguments, and the arguments unchanged. -/
theorem run : θ_run defs (onTc (τ := τ) (main (F := Ideal))) ⟨m, fun _ => 0, ρ⟩ fun r => ∀ c : Dev nD,
      r.2.mem ((c.tc : Thread nD τ).loc main_v35)
        = (fun _ => Spec.loss (m ((c : Thread nD τ).loc main_arg0)) (m ((c : Thread nD τ).loc main_arg1))
            (m ((c : Thread nD τ).loc main_arg2)) (m ((c : Thread nD τ).loc main_arg3)) (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v35 (Pipeline.mem_restRefs_of main_v35 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefValue.lean ====
/-
  The reference computes the loss.

  The reference forms the four per-sample terms as [4194304, 1] columns, sums each column over both of its axes from
  the literal `0.0`, and combines the four sums. Read one entry at a time, row `n` of each column is the term of
  sample `n`; a sum over a one-column array is the sum over its rows. On one bit the reference's complement is the
  kernel's exclusive-or with `1`.
-/
import proofs.«149313_j43645457662200_2_alg».proof.Proof.Gen.ReferenceIdeal.Read
import proofs.«149313_j43645457662200_2_alg».proof.Proof.Spec
import proofs.«149313_j43645457662200_2_alg».proof.Proof.Sums

noncomputable section

open Idealize.ShloMosaic Idealize.ShloMosaic.TcCoe Idealize.SL.Sem
open Idealize.ShloMosaic.ValueIdx
open scoped BigOperators

namespace Cert.ReferenceIdeal.RefValue

open Cert.ReferenceIdeal Cert.ReferenceIdeal.Gen Cert.ReferenceIdeal.Read

variable (x0 : (⟨S4194304x2, .f32⟩ : BufTy).Contents (Elt Ideal)) (x1 x2 : (⟨S4194304x1, .f32⟩ : BufTy).Contents (Elt Ideal))
  (x3 x4 : (⟨S4194304, .i32⟩ : BufTy).Contents (Elt Ideal))

/-! ## Where the layout operations read -/

/-- Row `n` of the lower-bound column is entry `(n, 0)` of the bounds; -/
theorem idx_lower (n : Fin 4194304) : idx_main_v0 (ix2 n (0 : Fin 1)) = ix2 n (0 : Fin 2) :=
  funext fun a => match a with
    | ⟨0, _⟩ => Fin.ext rfl
    | ⟨1, _⟩ => Fin.ext rfl

/-- of the upper-bound column, entry `(n, 1)`; -/
theorem idx_upper (n : Fin 4194304) : idx_main_v1 (ix2 n (0 : Fin 1)) = ix2 n (1 : Fin 2) :=
  funext fun a => match a with
    | ⟨0, _⟩ => Fin.ext rfl
    | ⟨1, _⟩ => Fin.ext rfl

/-- a flag vector broadcast to a column reads, at row `n`, its entry `n`. -/
theorem idx_dt (n : Fin 4194304) : idx_main_v19 (ix2 n (0 : Fin 1)) = ix1 n :=
  funext fun a => match a with
    | ⟨0, _⟩ => Fin.ext rfl

/-- The same for the second flag vector. -/
theorem idx_pv (n : Fin 4194304) : idx_main_v22 (ix2 n (0 : Fin 1)) = ix1 n :=
  funext fun a => match a with
    | ⟨0, _⟩ => Fin.ext rfl

/-! ## Row `n` of each column is sample `n`'s term -/

/-- The squared-distance column. -/
theorem sq_at (n : Fin 4194304) :
    val_main_v6 (F := Ideal) x0 x1 (ix2 n (0 : Fin 1)) = Spec.term x0 x1 x2 x3 x4 0 n := by
  simp only [val_main_v6_apply, val_main_v5_apply, val_main_v4_apply, val_main_v2_apply, val_main_v0_apply,
    val_main_v1_apply, val_main_v3_apply, val_main_cst_apply, idx_lower, idx_upper]
  rfl

/-- The width column. -/
theorem width_at (n : Fin 4194304) :
    val_main_v9 (F := Ideal) x0 (ix2 n (0 : Fin 1)) = Spec.term x0 x1 x2 x3 x4 1 n := by
  simp only [val_main_v9_apply, val_main_v0_apply, val_main_v1_apply, idx_lower, idx_upper]
  rfl

/-- The inversion column. -/
theorem cross_at (n : Fin 4194304) :
    val_main_v14 (F := Ideal) x0 (ix2 n (0 : Fin 1)) = Spec.term x0 x1 x2 x3 x4 2 n := by
  simp only [val_main_v14_apply, val_main_v12_apply, val_main_v13_apply, val_main_cst_4_apply, val_main_v0_apply,
    val_main_v1_apply, idx_lower, idx_upper]
  rfl

/-- The directional-penalty column: the reference's complement of the `pv = 0` bit is the exclusive-or with `1`. -/
theorem dir_at (n : Fin 4194304) :
    val_main_v31 (F := Ideal) x0 x2 x3 x4 (ix2 n (0 : Fin 1)) = Spec.term x0 x1 x2 x3 x4 3 n := by
  simp only [val_main_v31_apply, val_main_v30_apply, val_main_v29_apply, val_main_v28_apply, val_main_v27_apply,
    val_main_v26_apply, val_main_v25_apply, val_main_v24_apply, val_main_v23_apply, val_main_v22_apply,
    val_main_v21_apply, val_main_v20_apply, val_main_v19_apply, val_main_v18_apply, val_main_v17_apply,
    val_main_c_apply, val_main_c_7_apply, val_main_call0_v0_apply, val_main_call0_cst_apply,
    val_main_call1_v0_apply, val_main_call1_cst_apply, val_main_call2_v1_apply, val_main_call2_v0_apply,
    val_main_cst_8_apply, val_main_v4_apply, val_main_v2_apply, val_main_v0_apply, val_main_v1_apply,
    val_main_v3_apply, val_main_cst_apply, idx_lower, idx_upper, idx_dt, idx_pv]
  show Scalar.select _ _ (Scalar.select (IntOp.andi _ (~~~_)) _ _) = Spec.dirTerm _ _ _ _ _
  unfold Spec.dirTerm
  rw [Spec.xori_one]
  rfl

/-! ## The result -/

/-- The four totals, combined as the reference combines them. -/
theorem combine_eq (i : S_.Idx) : val_main_v40 (F := Ideal) x0 x1 x2 x3 x4 i
    = Spec.combine (val_main_v7 (F := Ideal) x0 x1 i) (val_main_v10 (F := Ideal) x0 i) (val_main_v15 (F := Ideal) x0 i)
        (val_main_v32 (F := Ideal) x0 x2 x3 x4 i) := by
  rw [val_main_v40_apply, val_main_v37_apply, val_main_v39_apply, val_main_v35_apply, val_main_v36_apply,
    val_main_v38_apply, val_main_v33_apply, val_main_v34_apply, val_main_v8_apply, val_main_v11_apply,
    val_main_v16_apply, val_main_cst_1_apply, val_main_cst_3_apply, val_main_cst_6_apply, val_main_cst_10_apply,
    val_main_cst_11_apply, val_main_cst_12_apply, val_main_cst_13_apply, val_main_cst_14_apply]
  generalize val_main_v7 (F := Ideal) x0 x1 i = a
  generalize val_main_v10 (F := Ideal) x0 i = b
  generalize val_main_v15 (F := Ideal) x0 i = c
  generalize val_main_v32 (F := Ideal) x0 x2 x3 x4 i = d
  rfl

/-- Each total is the literal `0.0` plus the sum of the term over all the samples. -/
theorem total0 (i : S_.Idx) :
    val_main_v7 (F := Ideal) x0 x1 i = Spec.zero + ∑ n : Fin 4194304, Spec.term x0 x1 x2 x3 x4 0 n := by
  rw [val_main_v7_apply, Cert.Sums.sum_column, Finset.sum_congr rfl fun n _ => sq_at x0 x1 x2 x3 x4 n]
  rfl

/-- The same for the widths, -/
theorem total1 (i : S_.Idx) :
    val_main_v10 (F := Ideal) x0 i = Spec.zero + ∑ n : Fin 4194304, Spec.term x0 x1 x2 x3 x4 1 n := by
  rw [val_main_v10_apply, Cert.Sums.sum_column, Finset.sum_congr rfl fun n _ => width_at x0 x1 x2 x3 x4 n]
  rfl

/-- the inversions, -/
theorem total2 (i : S_.Idx) :
    val_main_v15 (F := Ideal) x0 i = Spec.zero + ∑ n : Fin 4194304, Spec.term x0 x1 x2 x3 x4 2 n := by
  rw [val_main_v15_apply, Cert.Sums.sum_column, Finset.sum_congr rfl fun n _ => cross_at x0 x1 x2 x3 x4 n]
  rfl

/-- and the directional penalties. -/
theorem total3 (i : S_.Idx) :
    val_main_v32 (F := Ideal) x0 x2 x3 x4 i = Spec.zero + ∑ n : Fin 4194304, Spec.term x0 x1 x2 x3 x4 3 n := by
  rw [val_main_v32_apply, Cert.Sums.sum_column, Finset.sum_congr rfl fun n _ => dir_at x0 x1 x2 x3 x4 n]
  rfl

/-- The reference's result is the loss of its arguments. -/
theorem result_eq (i : S_.Idx) : val_main_v40 (F := Ideal) x0 x1 x2 x3 x4 i = Spec.loss x0 x1 x2 x3 x4 := by
  rw [combine_eq, total0 x0 x1 x2 x3 x4, total1 x0 x1 x2 x3 x4, total2 x0 x1 x2 x3 x4, total3 x0 x1 x2 x3 x4]
  rfl

end Cert.ReferenceIdeal.RefValue

end
-- ==== Proof.lean ====
/-
  The interval loss: a streaming kernel against its array reference, over the extended reals.

  Both programs compute one number from 4194304 samples: a weighted combination of four sums over the samples (the
  squared distance of the target from the interval's centre, the interval's width, how far the interval is inverted,
  and a directional penalty selected by two integer flags), each divided by the number of samples. The reference
  forms each term as a column and sums the column. The kernel re-lays the samples as 32768 rows of 128 lanes, walks
  them in sixteen slabs of 2048 rows, keeps for every lane and every term a running sum over the slabs, and the host
  finally sums the 128 lanes. The two differ only in the order and grouping of each sum, which over the extended
  reals (a commutative monoid under addition) changes nothing; the final combination is the same expression of the
  same literals on both sides. No finiteness of the inputs is used.

  The modules: `Spec` states the four terms, the combination and the loss; `Sums` regroups a sum over the samples
  by lane, slab and row; `Pieces`, `Cells`, `Blocks` and `Invariant` read what the kernel's accumulator holds after
  every grid point; `KernelValue` reads the kernel program's result and `RefValue` the reference's. Here the five
  claims are assembled.
-/
import proofs.«149313_j43645457662200_2_alg».proof.Defs
import proofs.«149313_j43645457662200_2_alg».proof.Proof.Gen.Kernel
import proofs.«149313_j43645457662200_2_alg».proof.Proof.Gen.Kernel.Skeleton
import proofs.«149313_j43645457662200_2_alg».proof.Proof.Gen.Kernel.Launch
import proofs.«149313_j43645457662200_2_alg».proof.Proof.Gen.Kernel.Points
import proofs.«149313_j43645457662200_2_alg».proof.Proof.Gen.Kernel.Frame
import proofs.«149313_j43645457662200_2_alg».proof.Proof.Gen.KernelIdeal
import proofs.«149313_j43645457662200_2_alg».proof.Proof.Gen.KernelIdeal.Skeleton
import proofs.«149313_j43645457662200_2_alg».proof.Proof.Gen.KernelIdeal.Launch
import proofs.«149313_j43645457662200_2_alg».proof.Proof.Gen.KernelIdeal.Points
import proofs.«149313_j43645457662200_2_alg».proof.Proof.Gen.KernelIdeal.Frame
import proofs.«149313_j43645457662200_2_alg».proof.Proof.Gen.ReferenceIdeal
import proofs.«149313_j43645457662200_2_alg».proof.Proof.Gen.Pre_finite_inputs
import proofs.«149313_j43645457662200_2_alg».proof.Proof.Gen.ReferenceIdeal.Run
import proofs.«149313_j43645457662200_2_alg».proof.Proof.Gen.ReferenceIdeal.Read
import proofs.«149313_j43645457662200_2_alg».proof.Proof.KernelValue
import proofs.«149313_j43645457662200_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read over the extended reals. -/
theorem preserves : Cert.preserves_Kernel_KernelIdeal := trivial

/-- Both programs end with the loss of their arguments, and the arguments agree. -/
theorem algebraic : Cert.algebraic_KernelIdeal_ReferenceIdeal := by
  intro m ρ m' ρ' _ hagree
  refine ⟨fun c => fun _ => Cert.Spec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v40_eq]
  funext i
  rw [Cert.ReferenceIdeal.RefValue.result_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
